-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  bitsLt_bf16_f32 : FTy.bits .bf16 < FTy.bits .f32
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S8192x4096, .f32⟩
  | .hbm, ⟨4, _⟩ => ⟨S8192x4096, .i1⟩
  | .hbm, ⟨5, _⟩ => ⟨S8192x4096, .f32⟩
  | .hbm, ⟨6, _⟩ => ⟨S4096x4096, .f32⟩
  | .hbm, ⟨7, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.ThresholdDot.lean ====
/-
  The mathematics of the certificate, with no program in sight.

  The result is a matrix product of a THRESHOLDED input with a weight matrix, contracted over the
  second axis of both:  out[r, c] = ∑ₖ step(x[r, k]) · w[c, k],  k over all 4096 columns, where
  step(v) is 1 if v > 0 and 0 otherwise (the comparison's bit read as a number).

  One side computes the whole sum at once. The other walks the contracted axis in four consecutive
  blocks of 1024 columns, starting from the zero word and adding one block's partial sum per step.
  Over the extended reals addition is commutative and associative (infinities included), so the
  sum over 4096 columns IS the sum over the four blocks of the sums over each block's 1024 columns:
  `sum_blocks`. Nothing here needs the entries to be finite.
-/
import Idealize.ShloMosaic.PureOps.Ideal
import Idealize.ShloMosaic.PureOps.Ideal.Laws
import Idealize.ShloMosaic.Lib.ValueIdx

noncomputable section

open scoped BigOperators

namespace Cert.ThresholdDot

open Idealize.ShloMosaic Idealize.ShloMosaic.ValueIdx

/-- The threshold: the bit of `v > 0`, read as an unsigned number — 1 where the entry is positive, 0 elsewhere
    (at `-∞`, at `0`, and at every negative real). The zero it compares against is kept as its word. -/
def step (v : EReal) : EReal :=
  FloatOps.uitofp (F := Ideal) .f32 (FloatOps.cmpf (F := Ideal) (φ := .f32) .ogt v (FloatOps.ofBits .f32 0x00000000#32))

/-- A one-bit word widened with zeros to 32 bits and read as a SIGNED integer is the bit read as an unsigned
    one: the widened word is 0 or 1, far from the sign bit. -/
theorem sitofp_widen_bit (b : BitVec 1) :
    FloatOps.sitofp (F := Ideal) .f32 (b.setWidth 32) = FloatOps.uitofp (F := Ideal) .f32 b := by
  show (((b.setWidth 32).toInt : ℝ) : EReal) = ((b.toNat : ℝ) : EReal)
  have h : (b.setWidth 32).toInt = (b.toNat : ℤ) := by revert b; decide
  rw [h, Int.cast_natCast]

/-! ## The contracted axis in four blocks -/

/-- Column `kk` of block `s` of the contracted axis: `1024·s + kk`. -/
def col (s : Fin 4) (kk : Fin 1024) : Fin 4096 :=
  ⟨s.val * 1024 + kk.val, by have := s.isLt; have := kk.isLt; omega⟩

/-- Every column is column `k % 1024` of block `k / 1024`, and of no other. -/
def colEquiv : Fin 4 × Fin 1024 ≃ Fin 4096 where
  toFun p := col p.1 p.2
  invFun k := (⟨k.val / 1024, by have := k.isLt; omega⟩, ⟨k.val % 1024, by omega⟩)
  left_inv p := by
    obtain ⟨s, kk⟩ := p
    have hs := s.isLt
    have hk := kk.isLt
    refine Prod.ext (Fin.ext ?_) (Fin.ext ?_)
    · show (s.val * 1024 + kk.val) / 1024 = s.val; omega
    · show (s.val * 1024 + kk.val) % 1024 = kk.val; omega
  right_inv k := by
    have hk := k.isLt
    refine Fin.ext ?_
    show k.val / 1024 * 1024 + k.val % 1024 = k.val; omega

/-- THE LAW that joins the two sides: a sum over the 4096 columns is the sum, over the four blocks, of each
    block's sum over its 1024 columns — in any commutative monoid, so over the extended reals with their
    infinities. -/
theorem sum_blocks {M : Type*} [AddCommMonoid M] (f : Fin 4096 → M) :
    ∑ k : Fin 4096, f k = ∑ s : Fin 4, ∑ kk : Fin 1024, f (col s kk) := by
  rw [← Equiv.sum_comp colEquiv f, Fintype.sum_prod_type]
  rfl

/-! ## The result, entry by entry -/

/-- Row `r` of the thresholded input against row `c` of the weights, over all 4096 columns. -/
def dot (X : (⟨2, ![8192, 4096]⟩ : Shape).Idx → EReal) (W : (⟨2, ![4096, 4096]⟩ : Shape).Idx → EReal)
    (r : Fin 8192) (c : Fin 4096) : EReal :=
  ∑ k : Fin 4096, step (X (ix2 r k)) * W (ix2 c k)

/-- THE SPECIFICATION: the [8192, 4096] result as one function of the two argument arrays. -/
def result (X : (⟨2, ![8192, 4096]⟩ : Shape).Idx → EReal) (W : (⟨2, ![4096, 4096]⟩ : Shape).Idx → EReal) :
    (⟨2, ![8192, 4096]⟩ : Shape).Idx → EReal :=
  fun i => dot X W (i 0) (i 1)

/-! ## The blockwise walk

The walk visits 128 points, numbered `n = 16·bi + 4·bj + s`: `bi < 8` is the block of 1024 input rows, `bj < 4` the
block of 1024 weight rows (result columns), `s < 4` the block of contracted columns. Written for every natural `n`
(the coordinates taken modulo their ranges), so that sums over runs of points need no bound. -/

/-- The input row that local row `p` is at point `n`. -/
def xRow (n : ℕ) (p : Fin 1024) : Fin 8192 := ⟨n / 16 % 8 * 1024 + p.val, by have := p.isLt; omega⟩
/-- The weight row (the result's column) that local row `q` is at point `n`. -/
def wRow (n : ℕ) (q : Fin 1024) : Fin 4096 := ⟨n / 4 % 4 * 1024 + q.val, by have := q.isLt; omega⟩
/-- The contracted column that local column `kk` is at point `n`. -/
def kCol (n : ℕ) (kk : Fin 1024) : Fin 4096 := ⟨n % 4 * 1024 + kk.val, by have := kk.isLt; omega⟩

/-- WHAT POINT `n` ADDS at local entry `y = (p, q)`: the products over its 1024 contracted columns. -/
def addend (X : (⟨2, ![8192, 4096]⟩ : Shape).Idx → EReal) (W : (⟨2, ![4096, 4096]⟩ : Shape).Idx → EReal)
    (n : ℕ) (y : (⟨2, ![1024, 1024]⟩ : Shape).Idx) : EReal :=
  ∑ kk : Fin 1024, step (X (ix2 (xRow n (y 0)) (kCol n kk))) * W (ix2 (wRow n (y 1)) (kCol n kk))

/-- The zero word plus the four addends of the run of points `4g, 4g + 1, 4g + 2, 4g + 3` (one row block, one column
    block, the four blocks of the contracted axis in turn) is the whole row-by-row product at that entry. -/
theorem run_sum (X : (⟨2, ![8192, 4096]⟩ : Shape).Idx → EReal) (W : (⟨2, ![4096, 4096]⟩ : Shape).Idx → EReal)
    (g : ℕ) (y : (⟨2, ![1024, 1024]⟩ : Shape).Idx) :
    Ideal.ofBits .f32 0x00000000#32 + ∑ s ∈ Finset.range 4, addend X W (4 * g + s) y
      = dot X W (xRow (4 * g) (y 0)) (wRow (4 * g) (y 1)) := by
  unfold dot
  rw [Ideal.ofBits_zero_f32, zero_add, ← Fin.sum_univ_eq_sum_range (fun s => addend X W (4 * g + s) y) 4, sum_blocks]
  refine Finset.sum_congr rfl fun s _ => ?_
  unfold addend
  refine Finset.sum_congr rfl fun kk _ => ?_
  have hs := s.isLt
  have e1 : xRow (4 * g + s.val) (y 0) = xRow (4 * g) (y 0) := Fin.ext (by
    show (4 * g + s.val) / 16 % 8 * 1024 + (y 0).val = 4 * g / 16 % 8 * 1024 + (y 0).val; omega)
  have e2 : wRow (4 * g + s.val) (y 1) = wRow (4 * g) (y 1) := Fin.ext (by
    show (4 * g + s.val) / 4 % 4 * 1024 + (y 1).val = 4 * g / 4 % 4 * 1024 + (y 1).val; omega)
  have e3 : kCol (4 * g + s.val) kk = col s kk := Fin.ext (by
    show (4 * g + s.val) % 4 * 1024 + kk.val = s.val * 1024 + kk.val; omega)
  rw [e1, e2, e3]

end Cert.ThresholdDot

end
-- ==== Proof.RefDot.lean ====
/-
  The reference, entry by entry: a host comparison against the zero word, the bit converted to a number, the weights
  transposed, and one dot_general contracting the input's columns with the transposed weights' rows. At entry (r, c)
  that is ∑ₖ step(x[r, k]) · wᵀ[k, c] = ∑ₖ step(x[r, k]) · w[c, k]: the specification.
-/
import proofs.«149366_j31645319036934_1_alg».proof.Proof.Gen.ReferenceIdeal.Read
import proofs.«149366_j31645319036934_1_alg».proof.Proof.ThresholdDot

noncomputable section

open scoped BigOperators

namespace Cert.ReferenceIdeal.RefValue

open Cert.ReferenceIdeal Cert.ReferenceIdeal.Gen Idealize.ShloMosaic Idealize.ShloMosaic.ValueIdx Cert.ThresholdDot

/-- The dot_general's left operand index at result entry `i` and contracted position `k`: row `i₀`, column `k`. -/
theorem lidx_eq (i : S8192x4096.Idx) (k : Fin 4096) : Read.lidx_main_v4 i k = ix2 (i 0) k :=
  funext fun a => by match a with | ⟨0, _⟩ => rfl | ⟨1, _⟩ => rfl

/-- Its right operand index, read through the transpose: row `i₁` of the weights, column `k`. -/
theorem ridx_eq (i : S8192x4096.Idx) (k : Fin 4096) : Read.idx_main_v3 (Read.ridx_main_v4 i k) = ix2 (i 1) k :=
  funext fun a => by match a with | ⟨0, _⟩ => rfl | ⟨1, _⟩ => rfl

/-- THE REFERENCE IS THE SPECIFICATION: its last stage, as a function of the two arguments, is `result`. -/
theorem reference_eq (x0 : (⟨S8192x4096, .f32⟩ : BufTy).Contents (Elt Ideal)) (x1 : (⟨S4096x4096, .f32⟩ : BufTy).Contents (Elt Ideal)) :
    Read.val_main_v4 (F := Ideal) x0 x1 = result x0 x1 := by
  funext i
  rw [Read.val_main_v4_apply]
  unfold result dot
  refine Finset.sum_congr rfl fun k _ => ?_
  rw [Read.val_main_v2_apply, Read.val_main_v1_apply, Read.val_main_v0_apply, Read.val_main_cst_apply,
    Read.val_main_v3_apply, lidx_eq, ridx_eq]
  rfl

end Cert.ReferenceIdeal.RefValue

end
-- ==== Proof.BodyPieces.lean ====
/-
  What one step of the walk leaves behind, as values, at any float instance.

  The body keeps a running [1024, 1024] block between points. With `x` the input block, `w` the weight block and `a`
  the running block on entry, one step stores  a + matmul(threshold(x), w)  back — the one pure term `k0_pay2 x w a`.
  At the first point of a run the running block is first reset to the zero block (`k0_pay1`) and THAT is what the step
  reads; at the last point of a run the block just stored is also copied to the output block. So:
    first point  : running block  = k0_pay2 x w zero
    middle point : running block  = k0_pay2 x w a
    last point   : running block  = output block = k0_pay2 x w a.
  Each is read off the stores the case's run recorded: the last store through the whole block wins, and a load of what a
  whole-block store left reads that store's value.
-/
import proofs.«149366_j31645319036934_1_alg».proof.Proof.Gen.KernelIdeal.Frame
import Idealize.ShloMosaic.Lib.Pipeline.Value
import Idealize.ShloMosaic.Lib.Tactic

noncomputable section

namespace Cert.KernelIdeal.Body

open Cert.KernelIdeal Cert.KernelIdeal.Gen Idealize.ShloMosaic Idealize.ShloMosaic.TcCoe Idealize.ShloMosaic.Tactic Idealize.SL.Sem

variable {F : FTy → Type} [FloatOps F]

/-- The zero offsets of a whole-block access, however spelt. -/
theorem hz : (![0, 0] : Fin 2 → Nat) = fun _ => 0 := funext fun a => by fin_cases a <;> rfl

/-- FIRST POINT OF A RUN: the running block is reset to zeros, read back, and left at `zero + matmul(threshold x, w)`. -/
theorem scratch_first (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i)
    (x0 x1 : Vec F S1024x1024 .f32) :
    sout0_A_0 c i a3 h3 a4 h4 a5 h5 a6 h6 hc0 hc1 x0 x1 = k0_pay2 x0 x1 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- MIDDLE POINT: the running block `a` is left at `a + matmul(threshold x, w)`. -/
theorem scratch_middle (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : ¬cond0_1 i)
    (x0 x1 xs0 : Vec F S1024x1024 .f32) :
    sout0_B_0 c i a3 h3 a4 h4 a5 h5 a6 h6 hc0 hc1 x0 x1 xs0 = k0_pay2 x0 x1 xs0 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz]
  simp only [View.readAt_eq_ld, h3.read_unread, h4.read_unread, h6.read_unread, View.ld_unit_zero (S := S1024x1024) hz]

/-- LAST POINT, the running block: the same step. -/
theorem scratch_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    sout0_C_0 c i a3 h3 a4 h4 a5 h5 a6 h6 hc0 hc1 x0 x1 xs0 = k0_pay2 x0 x1 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz]
  simp only [View.readAt_eq_ld, h3.read_unread, h4.read_unread, h6.read_unread, View.ld_unit_zero (S := S1024x1024) hz]

/-- LAST POINT, the output block: a copy of the running block just stored. -/
theorem out_last (c : Dev nD) (i : grid0.Coords) (a3 : Memref sig .tc .vmem S1024x1024 .f32) (h3 : a3.IsWhole)
    (a4 : Memref sig .tc .vmem S1024x1024 .f32) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i)
    (x0 x1 xs0 : Vec F S1024x1024 .f32) :
    out0_C_2 c i a3 h3 a4 h4 a5 h5 a6 h6 hc0 hc1 x0 x1 xs0 = k0_pay2 x0 x1 xs0 := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz]

end Cert.KernelIdeal.Body

end
-- ==== Proof.BodyValue.lean ====
/-
  One step of the walk, read at an entry, at the ideal values.

  With `x` the [1024, 1024] input block, `w` the [1024, 1024] weight block and `a` the running block, the step's value
  at local entry (p, q) is    a[p, q] + ∑ₖₖ step(x[p, kk]) · w[q, kk],    kk over the block's 1024 contracted columns:
  the comparison's bit is widened and converted (0 or 1, as the unsigned reading gives), the two changes of float
  format are the identity, and the matrix product into a zero block contracts the SECOND axis of both operands, so the
  left factor is read at (p, kk) and the right at (q, kk).
-/
import proofs.«149366_j31645319036934_1_alg».proof.Proof.Gen.KernelIdeal.Skeleton
import proofs.«149366_j31645319036934_1_alg».proof.Proof.ThresholdDot
import Idealize.ShloMosaic.Lib.Pipeline.Value
import Idealize.ShloMosaic.Lib.ValueIdx
import Idealize.ShloMosaic.PureOps.Ideal.Laws

noncomputable section

open scoped BigOperators

namespace Cert.KernelIdeal.Body

open Cert.KernelIdeal Cert.KernelIdeal.Gen Idealize.ShloMosaic Idealize.ShloMosaic.ValueIdx Cert.ThresholdDot

/-! ## The matrix product's operand indices -/

/-- The left operand's row is the result's row; -/
theorem lhs_row (j : S1024x1024.Idx) (k : dot_S1024x1024_S1024x1024_S1024x1024_1_1_0_0_n_n.contr.Idx) :
    (dot_S1024x1024_S1024x1024_S1024x1024_1_1_0_0_n_n.lhsIdx j k 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
/-- its column is the contracted position. -/
theorem lhs_col (j : S1024x1024.Idx) (k : dot_S1024x1024_S1024x1024_S1024x1024_1_1_0_0_n_n.contr.Idx) :
    (dot_S1024x1024_S1024x1024_S1024x1024_1_1_0_0_n_n.lhsIdx j k 1).val = (k ⟨0, by decide⟩).val :=
  dot_S1024x1024_S1024x1024_S1024x1024_1_1_0_0_n_n.lhsIdx_val_of_single rfl j k
/-- The right operand's row is the result's COLUMN; -/
theorem rhs_row (j : S1024x1024.Idx) (k : dot_S1024x1024_S1024x1024_S1024x1024_1_1_0_0_n_n.contr.Idx) :
    (dot_S1024x1024_S1024x1024_S1024x1024_1_1_0_0_n_n.rhsIdx j k 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
/-- its column is the contracted position too. -/
theorem rhs_col (j : S1024x1024.Idx) (k : dot_S1024x1024_S1024x1024_S1024x1024_1_1_0_0_n_n.contr.Idx) :
    (dot_S1024x1024_S1024x1024_S1024x1024_1_1_0_0_n_n.rhsIdx j k 1).val = (k ⟨0, by decide⟩).val :=
  dot_S1024x1024_S1024x1024_S1024x1024_1_1_0_0_n_n.rhsIdx_val_of_single rfl j k

/-- The matrix product into the zero block, at entry (p, q): the sum over the 1024 contracted columns of the left
    operand at (p, kk) times the right at (q, kk). -/
theorem matmul_zero_apply (l r : FVec Ideal S1024x1024 .bf16) (p q : Fin 1024) :
    matmul dot_S1024x1024_S1024x1024_S1024x1024_1_1_0_0_n_n none l r (constant (F := Ideal) S1024x1024 .f32 0x00000000#32) (ix2 p q)
      = ∑ kk : Fin 1024, l (ix2 p kk) * r (ix2 q kk) := by
  simp only [matmul]
  rw [Ideal.matmul_constant_zero_apply, ← Equiv.sum_comp (contrEquiv1 dot_S1024x1024_S1024x1024_S1024x1024_1_1_0_0_n_n 1024 rfl rfl).symm]
  refine Finset.sum_congr rfl fun kk _ => ?_
  have hk := contrEquiv1_symm_val dot_S1024x1024_S1024x1024_S1024x1024_1_1_0_0_n_n 1024 rfl rfl kk
  have el : dot_S1024x1024_S1024x1024_S1024x1024_1_1_0_0_n_n.lhsIdx (ix2 p q) ((contrEquiv1 dot_S1024x1024_S1024x1024_S1024x1024_1_1_0_0_n_n 1024 rfl rfl).symm kk) = ix2 p kk := funext fun a => Fin.ext (by
    match a with
    | ⟨0, _⟩ => exact lhs_row _ _
    | ⟨1, _⟩ => exact (lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm kk) = ix2 q kk := funext fun a => Fin.ext (by
    match a with
    | ⟨0, _⟩ => exact rhs_row _ _
    | ⟨1, _⟩ => exact (rhs_col _ _).trans hk)
  rw [el, er]

/-! ## The step at an entry -/

/-- THE STEP AT AN ENTRY: the running block there plus the block's 1024 products. -/
theorem step_apply (x w a : Vec Ideal S1024x1024 .f32) (p q : Fin 1024) :
    k0_pay2 (F := Ideal) x w a (ix2 p q) = a (ix2 p q) + ∑ kk : Fin 1024, step (x (ix2 p kk)) * w (ix2 q kk) := by
  unfold k0_pay2
  refine (congrFun (shapeCast_self _ _) (ix2 p q)).trans ?_
  refine congrArg (a (ix2 p q) + ·) ?_
  refine (matmul_zero_apply _ _ p q).trans ?_
  refine Finset.sum_congr rfl fun kk _ => ?_
  refine congrArg (· * w (ix2 q kk)) ?_
  exact sitofp_widen_bit _

/-- The zero block at an entry: the zero word. -/
theorem zero_apply (y : S1024x1024.Idx) : k0_pay1 (F := Ideal) y = Ideal.ofBits .f32 0x00000000#32 := by
  unfold k0_pay1
  exact congrFun (shapeCast_self _ _) y

end Cert.KernelIdeal.Body

end
-- ==== Proof.Walk.lean ====
/-
  The whole walk: from one step to the result array.

  The grid has 128 points, numbered `n = 16·bi + 4·bj + s` (`bi < 8` row blocks of the input, `bj < 4` row blocks of the
  weights, `s < 4` blocks of the contracted axis, `s` fastest). At point `n` the body sees the input block (bi, s) and
  the weight block (bj, s); the output block is (bi, bj) and is written back only at the points with `s = 3`.
  The running block is reset at `s = 0` and carried from each point to the next, so after the point with `s = 3` it
  holds, at local entry (p, q), the zero word plus the four points' addends — which is the full row-by-row product at
  entry (1024·bi + p, 1024·bj + q) (`ThresholdDot.run_sum`). At that point the output block is a copy of the running
  block. The 32 written blocks tile the [8192, 4096] result, so the result array ends as the specification's
  `ThresholdDot.result` of the two argument arrays.
-/
import proofs.«149366_j31645319036934_1_alg».proof.Proof.Gen.KernelIdeal.Value
import proofs.«149366_j31645319036934_1_alg».proof.Proof.BodyPieces
import proofs.«149366_j31645319036934_1_alg».proof.Proof.BodyValue
import proofs.«149366_j31645319036934_1_alg».proof.Proof.ThresholdDot
import Idealize.ShloMosaic.Lib.Pipeline.Value
import Idealize.ShloMosaic.Lib.ValueIdx

noncomputable section

open scoped BigOperators

namespace Cert.KernelIdeal.Walk

open Cert.KernelIdeal Cert.KernelIdeal.Gen Idealize.ShloMosaic Idealize.ShloMosaic.TcCoe Idealize.SL.Sem
open Idealize.ShloMosaic.ValueIdx Cert.ThresholdDot Cert.KernelIdeal.Body
open Idealize.ShloMosaic.Pipeline (Dat)

variable (m : (ℓ : Loc nD τ sig) → Buf (Elt Ideal) ℓ) (ρ : Dev nD → PrngReg) (c : Dev nD)

/-! ## Where each point's blocks lie -/

/-- The printed index maps, decided once over the 128 points: the input block is (n / 16, n % 4), the weight block
    (n / 4 % 4, n % 4), the output block (n / 16, n / 4 % 4). -/
theorem idx_facts : ∀ t : Fin cfg0.N,
    win0_0.index t (0 : Fin 2) = t.val / 16 % 8 ∧ win0_0.index t (1 : Fin 2) = t.val % 4
    ∧ win0_1.index t (0 : Fin 2) = t.val / 4 % 4 ∧ win0_1.index t (1 : Fin 2) = t.val % 4
    ∧ win0_2.index t (0 : Fin 2) = t.val / 16 % 8 ∧ win0_2.index t (1 : Fin 2) = t.val / 4 % 4 :=
  (by decide +kernel : ∀ t : Fin grid0.N, _)

/-- The output block is written back exactly at the points that end a run of four. -/
theorem flush_iff : ∀ t : Fin cfg0.N, (cfg0.win 2).flush t = true ↔ t.val % 4 = 3 :=
  (by decide +kernel : ∀ t : Fin grid0.N, _)

/-- The input block at point `t`, at local (p, kk): the input array at row `1024·(t / 16) + p`, column `1024·(t % 4) + kk`. -/
theorem xblk_apply (t : Fin cfg0.N) (p kk : Fin 1024) :
    (iblk m c 0 t : Vec Ideal S1024x1024 .f32) (ix2 p kk) = m ((c : Thread nD τ).loc main_arg0) (ix2 (xRow t.val p) (kCol t.val kk)) := by
  obtain ⟨e0, e1, -, -, -, -⟩ := idx_facts t
  unfold iblk
  rw [View.read_apply]
  show V m c main_arg0 _ = m ((c : Thread nD τ).loc main_arg0) _
  unfold V
  congr 1
  funext a
  apply Fin.ext
  match a with
  | ⟨0, _⟩ => show win0_0.index t 0 * 1024 + 1 * p.val = t.val / 16 % 8 * 1024 + p.val; rw [e0]; omega
  | ⟨1, _⟩ => show win0_0.index t 1 * 1024 + 1 * kk.val = t.val % 4 * 1024 + kk.val; rw [e1]; omega

/-- The weight block at point `t`, at local (q, kk): the weight array at row `1024·(t / 4 % 4) + q`, column `1024·(t % 4) + kk`. -/
theorem wblk_apply (t : Fin cfg0.N) (q kk : Fin 1024) :
    (iblk m c 1 t : Vec Ideal S1024x1024 .f32) (ix2 q kk) = m ((c : Thread nD τ).loc main_arg1) (ix2 (wRow t.val q) (kCol t.val kk)) := by
  obtain ⟨-, -, e0, e1, -, -⟩ := idx_facts t
  unfold iblk
  rw [View.read_apply]
  show V m c main_arg1 _ = m ((c : Thread nD τ).loc main_arg1) _
  unfold V
  congr 1
  funext a
  apply Fin.ext
  match a with
  | ⟨0, _⟩ => show win0_1.index t 0 * 1024 + 1 * q.val = t.val / 4 % 4 * 1024 + q.val; rw [e0]; omega
  | ⟨1, _⟩ => show win0_1.index t 1 * 1024 + 1 * kk.val = t.val % 4 * 1024 + kk.val; rw [e1]; omega

/-- So one step at point `t`, over a running block `a`, adds the point's addend at every local entry. -/
theorem step_at (t : Fin cfg0.N) (a : Vec Ideal S1024x1024 .f32) (y : S1024x1024.Idx) :
    k0_pay2 (F := Ideal) (iblk m c 0 t) (iblk m c 1 t) a y = a y + addend (m ((c : Thread nD τ).loc main_arg0)) (m ((c : Thread nD τ).loc main_arg1)) t.val y := by
  obtain ⟨p, q, rfl⟩ : ∃ (p q : Fin 1024), y = ix2 p q := ⟨y 0, y 1, eq_ix2 y⟩
  refine (step_apply (iblk m c 0 t) (iblk m c 1 t) a p q).trans ?_
  refine congrArg (a (ix2 p q) + ·) ?_
  unfold addend
  refine Finset.sum_congr rfl fun kk _ => ?_
  exact congrArg₂ (· * ·) (congrArg step (xblk_apply m c t p kk)) (wblk_apply m c t q kk)

/-! ## The running block along a run of four points -/

/-- At the first point of a run the running block is left at the zero word plus that point's addend, whatever it held. -/
theorem reset_apply (g : ℕ) (h : 4 * g < cfg0.N) (J : Vec Ideal S1024x1024 .f32) (y : S1024x1024.Idx) :
    Value.scAt0_0 m c (4 * g) h J y = Ideal.ofBits .f32 0x00000000#32 + addend (m ((c : Thread nD τ).loc main_arg0)) (m ((c : Thread nD τ).loc main_arg1)) (4 * g) y := by
  have h0 : 4 * g % 4 = 0 := Nat.mul_mod_right 4 g
  have h1 : ¬4 * g % 4 = 3 := by omega
  unfold Value.scAt0_0
  rw [dif_pos h0, dif_neg h1]
  refine (congrFun (scratch_first c (grid0.coords ⟨4 * g, h⟩) (ms0_0 ⟨4 * g, h⟩) (hs0_0 ⟨4 * g, h⟩) (ms0_1 ⟨4 * g, h⟩) (hs0_1 ⟨4 * g, h⟩)
    (ms0_2 ⟨4 * g, h⟩) (hs0_2 ⟨4 * g, h⟩) scM0_0 (Memref.isWhole_whole _) _ _ (iblk m c 0 ⟨4 * g, h⟩) (iblk m c 1 ⟨4 * g, h⟩)) y).trans ?_
  refine (step_at m c ⟨4 * g, h⟩ _ y).trans ?_
  rw [zero_apply]

/-- At each later point of the run it is left at what the point before left plus the point's addend. -/
theorem later_apply (g n : ℕ) (h : n < cfg0.N) (hb : 4 * g < n) (he : n ≤ 4 * g + 3) (acc : Vec Ideal S1024x1024 .f32)
    (y : S1024x1024.Idx) :
    Value.scAt0_0 m c n h acc y = acc y + addend (m ((c : Thread nD τ).loc main_arg0)) (m ((c : Thread nD τ).loc main_arg1)) n y := by
  have h0 : ¬n % 4 = 0 := by omega
  unfold Value.scAt0_0
  rw [dif_neg h0]
  by_cases h1 : n % 4 = 3
  · rw [dif_pos h1]
    refine (congrFun (scratch_last c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) scM0_0 (Memref.isWhole_whole _) _ _ (iblk m c 0 ⟨n, h⟩) (iblk m c 1 ⟨n, h⟩) acc) y).trans ?_
    exact step_at m c ⟨n, h⟩ acc y
  · rw [dif_neg h1]
    refine (congrFun (scratch_middle c (grid0.coords ⟨n, h⟩) (ms0_0 ⟨n, h⟩) (hs0_0 ⟨n, h⟩) (ms0_1 ⟨n, h⟩) (hs0_1 ⟨n, h⟩)
      (ms0_2 ⟨n, h⟩) (hs0_2 ⟨n, h⟩) scM0_0 (Memref.isWhole_whole _) _ _ (iblk m c 0 ⟨n, h⟩) (iblk m c 1 ⟨n, h⟩) acc) y).trans ?_
    exact step_at m c ⟨n, h⟩ acc y

/-- AFTER THE LAST POINT OF A RUN the running block holds, entry by entry, the full row-by-row product: the fold of
    the four steps from the reset is the zero word plus the four addends. -/
theorem scratch_full (t : Fin cfg0.N) (h3 : t.val % 4 = 3) (y : S1024x1024.Idx) :
    (outsAt0 m c t.val t.isLt).2 y
      = dot (m ((c : Thread nD τ).loc main_arg0)) (m ((c : Thread nD τ).loc main_arg1)) (xRow (4 * (t.val / 4)) (y 0)) (wRow (4 * (t.val / 4)) (y 1)) := by
  rw [Value.soutsAt0_0_eq m c t]
  refine (Pipeline.accAt_add_apply _ _ (fun _ => Ideal.ofBits .f32 0x00000000#32)
    (fun n y => addend (m ((c : Thread nD τ).loc main_arg0)) (m ((c : Thread nD τ).loc main_arg1)) n y) (4 * (t.val / 4)) 3
    (fun h y => reset_apply m c (t.val / 4) h _ y)
    (fun n h acc y hb he => later_apply m c (t.val / 4) n h hb he acc y) (t.val % 4) (by omega) _ y).trans ?_
  rw [h3]
  exact run_sum _ _ (t.val / 4) y

/-- At that point the output block is a copy of the running block. -/
theorem out_eq_scratch (t : Fin cfg0.N) (h0 : ¬t.val % 4 = 0) (h3 : t.val % 4 = 3) :
    (outsAt0 m c t.val t.isLt).1 = (outsAt0 m c t.val t.isLt).2 := by
  rw [outsAt0_C m c t h0 h3]
  dsimp only
  exact (out_last c (grid0.coords t) (ms0_0 t) (hs0_0 t) (ms0_1 t) (hs0_1 t) (ms0_2 t) (hs0_2 t) scM0_0 (Memref.isWhole_whole _) _ _
      (iblk m c 0 t) (iblk m c 1 t) _).trans
    (scratch_last c (grid0.coords t) (ms0_0 t) (hs0_0 t) (ms0_1 t) (hs0_1 t) (ms0_2 t) (hs0_2 t) scM0_0 (Memref.isWhole_whole _) _ _
      (iblk m c 0 t) (iblk m c 1 t) _).symm

/-! ## From the written blocks to the result array -/

/-- WHAT A WRITING POINT WRITES BACK is its block of the specification's result. -/
theorem flushed_eq (t : Fin cfg0.N) (hf : (cfg0.win 2).flush t = true) :
    (dats m 0 c).flushed 2 t = ((cfg0.win 2).blk t).view.read (Elt Ideal) (result (m ((c : Thread nD τ).loc main_arg0)) (m ((c : Thread nD τ).loc main_arg1))) := by
  have h3 : t.val % 4 = 3 := (flush_iff t).mp hf
  have h0 : ¬t.val % 4 = 0 := by omega
  obtain ⟨-, -, -, -, e0, e1⟩ := idx_facts t
  rw [Value.flushed2, out_eq_scratch m c t h0 h3]
  funext j
  show (outsAt0 m c t.val t.isLt).2 ((cfg0.win 2).xinj (grid0.coords t) j) = result (m ((c : Thread nD τ).loc main_arg0)) (m ((c : Thread nD τ).loc main_arg1)) (((cfg0.win 2).blk t).view.emb j)
  refine (scratch_full m c t h3 _).trans ?_
  unfold result
  have hj0 : (j 0).val < 1024 := (j 0).isLt
  have hj1 : (j 1).val < 1024 := (j 1).isLt
  have r0 : xRow (4 * (t.val / 4)) ((cfg0.win 2).xinj (grid0.coords t) j 0) = (((cfg0.win 2).blk t).view.emb j) 0 := Fin.ext (by
    show 4 * (t.val / 4) / 16 % 8 * 1024 + (j 0).val = win0_2.index t (0 : Fin 2) * 1024 + 1 * (j 0).val
    rw [e0]; omega)
  have r1 : wRow (4 * (t.val / 4)) ((cfg0.win 2).xinj (grid0.coords t) j 1) = (((cfg0.win 2).blk t).view.emb j) 1 := Fin.ext (by
    show 4 * (t.val / 4) / 4 % 4 * 1024 + (j 1).val = win0_2.index t (1 : Fin 2) * 1024 + 1 * (j 1).val
    rw [e1]; omega)
  rw [r0, r1]

/-- An index of the result is in point `t`'s output block iff each coordinate is in the block's range on its axis. -/
theorem mem_blk (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v0).slice (win0_2.rect t)).set ↔ _
  rw [View.set_slice_whole, Rect.mem_set_unit]
  exact Iff.rfl

/-- THE COVER: entry (r, cc) of the result lies in the block written at the point that ends the run of row block
    `r / 1024` and column block `cc / 1024`. -/
theorem cover (i : S8192x4096.Idx) :
    ∃ t : Fin cfg0.N, (cfg0.win 2).flush t = true ∧ i ∈ ((cfg0.win 2).blk t).view.set := by
  have hN : cfg0.N = 128 := N_0
  have hi0 : (i 0).val < 8192 := (i 0).isLt
  have hi1 : (i 1).val < 4096 := (i 1).isLt
  let t : Fin cfg0.N := ⟨16 * ((i 0).val / 1024) + 4 * ((i 1).val / 1024) + 3, by rw [hN]; omega⟩
  have htv : t.val = 16 * ((i 0).val / 1024) + 4 * ((i 1).val / 1024) + 3 := rfl
  obtain ⟨-, -, -, -, e0, e1⟩ := idx_facts t
  refine ⟨t, (flush_iff t).mpr (by rw [htv]; omega), ?_⟩
  rw [mem_blk]
  intro a
  match a with
  | ⟨0, _⟩ => show win0_2.index t (0 : Fin 2) * 1024 ≤ (i 0).val ∧ (i 0).val < win0_2.index t (0 : Fin 2) * 1024 + 1024; rw [e0, htv]; omega
  | ⟨1, _⟩ => show win0_2.index t (1 : Fin 2) * 1024 ≤ (i 1).val ∧ (i 1).val < win0_2.index t (1 : Fin 2) * 1024 + 1024; rw [e1, htv]; omega

/-- THE RESULT ARRAY after the run is the specification's result of the two argument arrays. -/
theorem final : (dats m 0 c).arrAt 2 cfg0.N = result (m ((c : Thread nD τ).loc main_arg0)) (m ((c : Thread nD τ).loc main_arg1)) :=
  (dats m 0 c).arrAt_eq_of_cover 2 (result (m ((c : Thread nD τ).loc main_arg0)) (m ((c : Thread nD τ).loc main_arg1))) (flushed_eq m c) (cover)

/-- The run, read: the result array at the specification, the two arguments unchanged. -/
theorem run : θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Walk

end
-- ==== Proof.lean ====
/-
  The certificate of a sign-binarized linear layer: out = threshold(x) · Wᵀ, with x of shape [8192, 4096], W of shape
  [4096, 4096], and threshold(v) = 1 where v > 0 and 0 elsewhere.

  The kernel tiles the product in 1024 × 1024 × 1024 blocks over an 8 × 4 × 4 grid and accumulates, for each output
  block, the four partial products along the contracted axis in a running block that is reset at the first of the four
  and copied to the output at the last. The reference thresholds the whole input, transposes the weights and
  contracts once. At the ideal values (floats are extended reals, a change of float format is the identity) both compute

      out[r, c] = ∑ₖ threshold(x[r, k]) · W[c, k],   k over all 4096 columns

  — the kernel as the zero word plus four sums over 1024 consecutive columns each, the reference as one sum over 4096.
  Addition on the extended reals is commutative and associative, infinities included, so the two are equal with no
  finiteness assumption; the precondition is not used by the value claim.

  Modules: ThresholdDot (the specification and the one law, a sum over 4096 columns split into four blocks),
  RefDot (the reference is the specification), BodyPieces (what one step leaves in the running block and the output
  block, at any float instance), BodyValue (one step read at an entry at the ideal values), Walk (the four-step
  fold, the written blocks and the cover of the result array).
-/
import proofs.«149366_j31645319036934_1_alg».proof.Defs
import proofs.«149366_j31645319036934_1_alg».proof.Proof.Gen.Kernel
import proofs.«149366_j31645319036934_1_alg».proof.Proof.Gen.Kernel.Skeleton
import proofs.«149366_j31645319036934_1_alg».proof.Proof.Gen.Kernel.Launch
import proofs.«149366_j31645319036934_1_alg».proof.Proof.Gen.Kernel.Points
import proofs.«149366_j31645319036934_1_alg».proof.Proof.Gen.Kernel.Frame
import proofs.«149366_j31645319036934_1_alg».proof.Proof.Gen.KernelIdeal
import proofs.«149366_j31645319036934_1_alg».proof.Proof.Gen.KernelIdeal.Skeleton
import proofs.«149366_j31645319036934_1_alg».proof.Proof.Gen.KernelIdeal.Launch
import proofs.«149366_j31645319036934_1_alg».proof.Proof.Gen.KernelIdeal.Points
import proofs.«149366_j31645319036934_1_alg».proof.Proof.Gen.KernelIdeal.Frame
import proofs.«149366_j31645319036934_1_alg».proof.Proof.Gen.ReferenceIdeal
import proofs.«149366_j31645319036934_1_alg».proof.Proof.Gen.Pre_finite_inputs
import proofs.«149366_j31645319036934_1_alg».proof.Proof.Gen.KernelIdeal.Value
import proofs.«149366_j31645319036934_1_alg».proof.Proof.Gen.ReferenceIdeal.Run
import proofs.«149366_j31645319036934_1_alg».proof.Proof.Gen.ReferenceIdeal.Read
import proofs.«149366_j31645319036934_1_alg».proof.Proof.ThresholdDot
import proofs.«149366_j31645319036934_1_alg».proof.Proof.RefDot
import proofs.«149366_j31645319036934_1_alg».proof.Proof.Walk
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- The reference's frame is its run with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The ideal reading rewrote no operation of the kernel: nothing to preserve. -/
theorem preserves : Cert.preserves_Kernel_KernelIdeal := trivial

/-- At the ideal values the kernel's result array ends at the specification of its arguments (the four-step fold, block
    by block), and the reference's at the same specification of arguments that agree with them (one contraction). -/
theorem algebraic : Cert.algebraic_KernelIdeal_ReferenceIdeal := by
  intro m ρ m' ρ' _ hagree
  refine ⟨fun c => Cert.ThresholdDot.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Walk.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
